-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S8x256x1024 : Shape := ⟨3, ![8, 256, 1024]⟩
abbrev S8x1024x256 : Shape := ⟨3, ![8, 1024, 256]⟩
abbrev S8 : Shape := ⟨1, ![8]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S8x256x1024 : S_.BroadcastsInDim S8x256x1024 (![] : Fin 0 → Fin S8x256x1024.rank)
  reducesTo_S8x256x1024_S_d0_1_2 : S8x256x1024.ReducesTo [0, 1, 2] S_
  bcast_S_S8x1024x256 : S_.BroadcastsInDim S8x1024x256 (![] : Fin 0 → Fin S8x1024x256.rank)
  reducesTo_S8x1024x256_S_d0_1_2 : S8x1024x256.ReducesTo [0, 1, 2] S_

variable [Facts]

def fn_part1 {F : FTy → Type} [FloatOps F] (main_v13 : IVec S_ 1) (main_v16 : IVec S8x1024x256 1) : IVec S_ 1 :=
  let main_c_5 : IVec S_ 1 := constantI S_ 1 1#1
  let main_v17 : IVec S_ 1 := (fun x v => Host.reduce IntOp.andi x v reducesTo_S8x1024x256_S_d0_1_2 h_S_) main_v16 main_c_5
  let main_v18 : IVec S_ 1 := andi main_v13 main_v17
  main_v18

def fn {F : FTy → Type} [FloatOps F] (main_arg0 : FVec F S131072x256 .f32) (main_arg1 : FVec F S8x256x1024 .f32) (main_arg2 : FVec F S8x256x1024 .f32) (main_arg3 : FVec F S8x1024x256 .f32) (main_arg4 : IVec S8 32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S8x256x1024 .f32 := Host.absf main_arg1
  let main_cst_0 : FVec F S_ .f32 := constant S_ .f32 0x7F800000#32
  let main_v5 : FVec F S8x256x1024 .f32 := broadcastInDim S8x256x1024 ![] bcast_S_S8x256x1024 main_cst_0
  let main_v6 : IVec S8x256x1024 1 := cmpf .olt main_v4 main_v5
  let main_c_1 : IVec S_ 1 := constantI S_ 1 1#1
  let main_v7 : IVec S_ 1 := (fun x v => Host.reduce IntOp.andi x v reducesTo_S8x256x1024_S_d0_1_2 h_S_) main_v6 main_c_1
  let main_v8 : IVec S_ 1 := andi main_v3 main_v7
  let main_v9 : FVec F S8x256x1024 .f32 := Host.absf main_arg2
  let main_cst_2 : FVec F S_ .f32 := constant S_ .f32 0x7F800000#32
  let main_v10 : FVec F S8x256x1024 .f32 := broadcastInDim S8x256x1024 ![] bcast_S_S8x256x1024 main_cst_2
  let main_v11 : IVec S8x256x1024 1 := cmpf .olt main_v9 main_v10
  let main_c_3 : IVec S_ 1 := constantI S_ 1 1#1
  let main_v12 : IVec S_ 1 := (fun x v => Host.reduce IntOp.andi x v reducesTo_S8x256x1024_S_d0_1_2 h_S_) main_v11 main_c_3
  let main_v13 : IVec S_ 1 := andi main_v8 main_v12
  let main_v14 : FVec F S8x1024x256 .f32 := Host.absf main_arg3
  let main_cst_4 : FVec F S_ .f32 := constant S_ .f32 0x7F800000#32
  let main_v15 : FVec F S8x1024x256 .f32 := broadcastInDim S8x1024x256 ![] bcast_S_S8x1024x256 main_cst_4
  let main_v16 : IVec S8x1024x256 1 := cmpf .olt main_v14 main_v15
  fn_part1 (F := F) main_v13 main_v16
-- ==== Kernel.lean ====
abbrev S131072x256 : Shape := ⟨2, ![131072, 256]⟩
abbrev S8x256x1024 : Shape := ⟨3, ![8, 256, 1024]⟩
abbrev S8x1024x256 : Shape := ⟨3, ![8, 1024, 256]⟩
abbrev S8 : Shape := ⟨1, ![8]⟩
abbrev S8x16384x256 : Shape := ⟨3, ![8, 16384, 256]⟩
abbrev S1x2048x256 : Shape := ⟨3, ![1, 2048, 256]⟩
abbrev S1x256x1024 : Shape := ⟨3, ![1, 256, 1024]⟩
abbrev S1x1024x256 : Shape := ⟨3, ![1, 1024, 256]⟩
abbrev S2048x256 : Shape := ⟨2, ![2048, 256]⟩
abbrev S1x256x512 : Shape := ⟨3, ![1, 256, 512]⟩
abbrev S256x512 : Shape := ⟨2, ![256, 512]⟩
abbrev S1x512x256 : Shape := ⟨3, ![1, 512, 256]⟩
abbrev S512x256 : Shape := ⟨2, ![512, 256]⟩
abbrev S2048x512 : Shape := ⟨2, ![2048, 512]⟩

abbrev nBuf : Space → Nat
  | .hbm => 11
  | .vmem => 8
  | .smem => 0
  | _ => 0

abbrev bufTy : (tb : Table) → Fin (tcTables nBuf tb) → BufTy
  | .hbm, ⟨0, _⟩ => ⟨S131072x256, .f32⟩
  | .hbm, ⟨1, _⟩ => ⟨S8x256x1024, .f32⟩
  | .hbm, ⟨2, _⟩ => ⟨S8x256x1024, .f32⟩
  | .hbm, ⟨3, _⟩ => ⟨S8x1024x256, .f32⟩
  | .hbm, ⟨4, _⟩ => ⟨S8, .i32⟩
  | .hbm, ⟨5, _⟩ => ⟨S8x16384x256, .f32⟩
  | .hbm, ⟨6, _⟩ => ⟨S8x256x1024, .bf16⟩
  | .hbm, ⟨7, _⟩ => ⟨S8x256x1024, .bf16⟩
  | .hbm, ⟨8, _⟩ => ⟨S8x1024x256, .bf16⟩
  | .hbm, ⟨9, _⟩ => ⟨S8x16384x256, .f32⟩
  | .hbm, ⟨10, _⟩ => ⟨S131072x256, .f32⟩
  | .local _ .vmem, ⟨0, _⟩ => ⟨S1x2048x256, .f32⟩
  | .local _ .vmem, ⟨1, _⟩ => ⟨S1x2048x256, .f32⟩
  | .local _ .vmem, ⟨2, _⟩ => ⟨S1x256x1024, .bf16⟩
  | .local _ .vmem, ⟨3, _⟩ => ⟨S1x256x1024, .bf16⟩
  | .local _ .vmem, ⟨4, _⟩ => ⟨S1x1024x256, .bf16⟩
  | .local _ .vmem, ⟨5, _⟩ => ⟨S1x2048x256, .f32⟩
  | .local _ .vmem, ⟨6, _⟩ => ⟨S1x2048x256, .f32⟩
  | .local _ .vmem, ⟨7, _⟩ => ⟨S2048x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S131072x256_S8x16384x256 : S131072x256.ShapeCasts S8x16384x256
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256x1024_S1x256x512_0_0_0 : ∀ a, (![0, 0, 0] : Fin 3 → Nat) a + S1x256x512.size a ≤ S1x256x1024.size a
  h_S1x256x512 : 0 < S1x256x512.numel
  shapeCasts_S1x256x512_S256x512 : S1x256x512.ShapeCasts S256x512
  inb_S1x1024x256_S1x512x256_0_0_0 : ∀ a, (![0, 0, 0] : Fin 3 → Nat) a + S1x512x256.size a ≤ S1x1024x256.size a
  h_S1x512x256 : 0 < S1x512x256.numel
  shapeCasts_S1x512x256_S512x256 : S1x512x256.ShapeCasts S512x256
  inb_S1x256x1024_S1x256x512_0_0_512 : ∀ a, (![0, 0, 512] : Fin 3 → Nat) a + S1x256x512.size a ≤ S1x256x1024.size a
  inb_S1x1024x256_S1x512x256_0_512_0 : ∀ a, (![0, 512, 0] : Fin 3 → Nat) a + S1x512x256.size a ≤ S1x1024x256.size a
  shapeCasts_S2048x256_S1x2048x256 : S2048x256.ShapeCasts S1x2048x256
  shapeCasts_S8x16384x256_S131072x256 : S8x16384x256.ShapeCasts S131072x256
  dot_S2048x256_S256x512_S2048x512_1_0_0_1_n_n_wf : DotDims.WF S2048x256 S256x512 S2048x512 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x16384x256.size a
  hwx0_0 : ∀ i : grid0.Coords, EltTy.bits .f32 = 32 ∨ (Rect.block (s := S8x16384x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S8x256x1024.size a
  hwx0_1 : ∀ i : grid0.Coords, EltTy.bits .bf16 = 32 ∨ (Rect.block (s := S8x256x1024) S1x256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S8x256x1024.size a
  hwx0_2 : ∀ i : grid0.Coords, EltTy.bits .bf16 = 32 ∨ (Rect.block (s := S8x256x1024) S1x256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S8x1024x256.size a
  hwx0_3 : ∀ i : grid0.Coords, EltTy.bits .bf16 = 32 ∨ (Rect.block (s := S8x1024x256) S1x1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x256.size a ≤ S8x16384x256.size a
  hwx0_4 : ∀ i : grid0.Coords, EltTy.bits .f32 = 32 ∨ (Rect.block (s := S8x16384x256) S1x2048x256.size (cc0_transform_4 i) (hinb0_4 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_v0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x256 : Shape := ⟨2, ![131072, 256]⟩
abbrev S8x256x1024 : Shape := ⟨3, ![8, 256, 1024]⟩
abbrev S8x1024x256 : Shape := ⟨3, ![8, 1024, 256]⟩
abbrev S8 : Shape := ⟨1, ![8]⟩
abbrev S8x16384x256 : Shape := ⟨3, ![8, 16384, 256]⟩
abbrev S8x16384x1024 : Shape := ⟨3, ![8, 16384, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S8x256x1024, .f32⟩
  | .hbm, ⟨2, _⟩ => ⟨S8x256x1024, .f32⟩
  | .hbm, ⟨3, _⟩ => ⟨S8x1024x256, .f32⟩
  | .hbm, ⟨4, _⟩ => ⟨S8, .i32⟩
  | .hbm, ⟨5, _⟩ => ⟨S8x16384x256, .f32⟩
  | .hbm, ⟨6, _⟩ => ⟨S8x16384x1024, .f32⟩
  | .hbm, ⟨7, _⟩ => ⟨S8x16384x1024, .f32⟩
  | .hbm, ⟨8, _⟩ => ⟨S8x16384x1024, .f32⟩
  | .hbm, ⟨9, _⟩ => ⟨S8x16384x1024, .f32⟩
  | .hbm, ⟨10, _⟩ => ⟨S_, .f32⟩
  | .hbm, ⟨11, _⟩ => ⟨S8x16384x1024, .f32⟩
  | .hbm, ⟨12, _⟩ => ⟨S8x16384x1024, .f32⟩
  | .hbm, ⟨13, _⟩ => ⟨S_, .f32⟩
  | .hbm, ⟨14, _⟩ => ⟨S8x16384x1024, .f32⟩
  | .hbm, ⟨15, _⟩ => ⟨S8x16384x1024, .f32⟩
  | .hbm, ⟨16, _⟩ => ⟨S8x16384x1024, .f32⟩
  | .hbm, ⟨17, _⟩ => ⟨S8x16384x1024, .f32⟩
  | .hbm, ⟨18, _⟩ => ⟨S8x16384x256, .f32⟩
  | .hbm, ⟨19, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]

class Facts₀ : Prop where
  shapeCasts_S131072x256_S8x16384x256 : S131072x256.ShapeCasts S8x16384x256
  bcast_S_S8x16384x1024 : S_.BroadcastsInDim S8x16384x1024 (![] : Fin 0 → Fin S8x16384x1024.rank)
  shapeCasts_S8x16384x256_S131072x256 : S8x16384x256.ShapeCasts S131072x256
  dot_S8x16384x256_S8x256x1024_S8x16384x1024_2_1_1_2_0_0_wf : DotDims.WF S8x16384x256 S8x256x1024 S8x16384x1024 [2] [1] [1] [2] [0] [0]
  dot_S8x16384x1024_S8x1024x256_S8x16384x256_2_1_1_2_0_0_wf : DotDims.WF S8x16384x1024 S8x1024x256 S8x16384x256 [2] [1] [1] [2] [0] [0]

variable [Facts₀]

def dot_S8x16384x256_S8x256x1024_S8x16384x1024_2_1_1_2_0_0 : DotDims S8x16384x256 S8x256x1024 S8x16384x1024 where
  lhsContracting := [2]
  rhsContracting := [1]
  lhsNonContracting := [1]
  rhsNonContracting := [2]
  lhsBatch := [0]
  rhsBatch := [0]
  wf := dot_S8x16384x256_S8x256x1024_S8x16384x1024_2_1_1_2_0_0_wf
def dot_S8x16384x1024_S8x1024x256_S8x16384x256_2_1_1_2_0_0 : DotDims S8x16384x1024 S8x1024x256 S8x16384x256 where
  lhsContracting := [2]
  rhsContracting := [1]
  lhsNonContracting := [1]
  rhsNonContracting := [2]
  lhsBatch := [0]
  rhsBatch := [0]
  wf := dot_S8x16384x1024_S8x1024x256_S8x16384x256_2_1_1_2_0_0_wf

class Facts : Prop extends Facts₀ where

variable [Facts]
-- ==== Proof.BlockRun.lean ====
/-
  What one grid point leaves in the output block, as a pure function of the point's four input blocks.

  The body zeroes its accumulator, adds the first half-width product onto it, adds the second onto that, and
  copies the accumulator to the output block.  Each of these is one store over the whole accumulator (or the whole
  output block), and each read of the accumulator comes after such a store, so it reads that store's value.  The
  weights are read in half slices: the first 512 and the last 512 of the 1024 hidden features.  Hence the block
  is the copy of  (0 + first half's product) + second half's product,  each product a function of the
  input block, the two weight slices of that half, and the down-weight slice of that half.
-/
import proofs.«108139_j35373350650171_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Block

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The first 512 hidden features of a gate or up weight block. -/
abbrev rFeatLo : Rect S1x256x1024 := Rect.unit (s := S1x256x1024) ![0, 0, 0] S1x256x512.size inb_S1x256x1024_S1x256x512_0_0_0
/-- The last 512 hidden features of a gate or up weight block. -/
abbrev rFeatHi : Rect S1x256x1024 := Rect.unit (s := S1x256x1024) ![0, 0, 512] S1x256x512.size inb_S1x256x1024_S1x256x512_0_0_512
/-- The first 512 rows of a down weight block. -/
abbrev rDownLo : Rect S1x1024x256 := Rect.unit (s := S1x1024x256) ![0, 0, 0] S1x512x256.size inb_S1x1024x256_S1x512x256_0_0_0
/-- The last 512 rows of a down weight block. -/
abbrev rDownHi : Rect S1x1024x256 := Rect.unit (s := S1x1024x256) ![0, 512, 0] S1x512x256.size inb_S1x1024x256_S1x512x256_0_512_0

/-- The output block as a function of the input block `x0` and the three weight blocks. -/
def blockOut (x0 : Vec F S1x2048x256 .f32) (x1 x2 : Vec F S1x256x1024 .bf16) (x3 : Vec F S1x1024x256 .bf16) : Vec F S1x2048x256 .f32 :=
  k0_pay2 (k0_pay1 (k0_pay3 x0) (k0_pay6 (View.ld x1 rFeatHi)) (View.ld x2 rFeatHi) (View.ld x3 rDownHi)
    (k0_pay5 x0 (View.ld x1 rFeatLo) (View.ld x2 rFeatLo) (View.ld x3 rDownLo) k0_pay4))

/-- The body's stores, read back, leave exactly that function of the blocks in the output's staging buffer. -/
theorem out_eq (c : Dev nD) (i : grid0.Coords) (a2 : Memref sig .tc .vmem S1x2048x256 .f32) (h2 : a2.IsWhole) (a3 : Memref sig .tc .vmem S1x256x1024 .bf16) (h3 : a3.IsWhole) (a4 : Memref sig .tc .vmem S1x256x1024 .bf16) (h4 : a4.IsWhole) (a5 : Memref sig .tc .vmem S1x1024x256 .bf16) (h5 : a5.IsWhole) (a6 : Memref sig .tc .vmem S1x2048x256 .f32) (h6 : a6.IsWhole) (a7 : Memref sig .tc .vmem S2048x256 .f32) (h7 : a7.IsWhole)
    (x0 : Vec F S1x2048x256 .f32) (x1 : Vec F S1x256x1024 .bf16) (x2 : Vec F S1x256x1024 .bf16) (x3 : Vec F S1x1024x256 .bf16) :
    out0_A_4 c i a2 h2 a3 h3 a4 h4 a5 h5 a6 h6 a7 h7 x0 x1 x2 x3 = blockOut x0 x1 x2 x3 := by
  unfold out0_A_4
  rw [View.read_writes_eq_canon _ _ _ (cover0_A_4 c i a2 h2 a3 h3 a4 h4 a5 h5 a6 h6 a7 h7 x0 x1 x2 x3)]
  unfold kernelRun0_A
  dsimp only
  sl_unfold_words
  rw [View.canon_unit_zero (S := S1x2048x256) hz3]
  simp only [View.readCov_cons_toLoadRect, View.readAt_eq_ld, h2.read_unread, h3.read_unread, h4.read_unread, h5.read_unread,
    View.ld_unit_zero (S := S1x2048x256) hz3]
  rfl

end Cert.KernelIdeal.Block

end
-- ==== Proof.Spec.lean ====
/-
  One token row of the gated unit, over the extended reals.

  For a row `xr` of 256 inputs, gate and up weights `wg`, `wu` (256 × 1024) and one column `wd` of the down
  weights (1024 entries), the hidden unit at feature `f` is
      h f = (z · σ z) · u,   z = Σₖ xr k · wg k f,   u = Σₖ xr k · wu k f,   σ z = 1 / (1 + e^(−z)),
  and the output entry is  Σ_f h f · wd f  over all 1024 features (`outFull`).  Computing the features in two
  halves of 512 and adding the halves one after the other onto a zero gives `(0 + Σ_{f<512} …) + Σ_{512≤f} …`
  (`outChunked`).  The two agree: a finite sum over 1024 indices is the sum over the first 512 plus the sum over
  the last 512, and adding onto zero changes nothing.  Only the commutative-monoid laws of addition are used, so
  the equality holds at the infinities too and no finiteness of the inputs is needed.
-/
import Idealize.ShloMosaic.PureOps.Ideal
import Idealize.ShloMosaic.PureOps.Ideal.Laws
import Idealize.ShloMosaic.Lib.IdealHost

noncomputable section

namespace Cert.Spec

open Idealize.ShloMosaic

/-- The gate applied to a pre-activation `z` and an up-projection `u`: `(z · σ z) · u`. -/
def gate (z u : EReal) : EReal := z * Ideal.logistic z * u

/-- The hidden unit of a row against one gate column and one up column. -/
def hidden (xr cg cu : Fin 256 → EReal) : EReal := gate (∑ k, xr k * cg k) (∑ k, xr k * cu k)

/-- Feature `f` of the first half, among all 1024. -/
def lo (f : Fin 512) : Fin 1024 := ⟨f.val, by omega⟩
/-- Feature `f` of the second half, among all 1024. -/
def hi (f : Fin 512) : Fin 1024 := ⟨512 + f.val, by omega⟩

/-- The output entry as one sum over all 1024 features. -/
def outFull (xr : Fin 256 → EReal) (wg wu : Fin 256 → Fin 1024 → EReal) (wd : Fin 1024 → EReal) : EReal :=
  ∑ f : Fin 1024, hidden xr (fun k => wg k f) (fun k => wu k f) * wd f

/-- The output entry as the two half sums added in turn onto zero. -/
def outChunked (xr : Fin 256 → EReal) (wg wu : Fin 256 → Fin 1024 → EReal) (wd : Fin 1024 → EReal) : EReal :=
  (0 + ∑ f : Fin 512, hidden xr (fun k => wg k (lo f)) (fun k => wu k (lo f)) * wd (lo f))
    + ∑ f : Fin 512, hidden xr (fun k => wg k (hi f)) (fun k => wu k (hi f)) * wd (hi f)

/-- A sum over 1024 indices is the first half's sum, added onto zero, plus the second half's. -/
theorem sum_halves {M : Type*} [AddCommMonoid M] (a : Fin 1024 → M) :
    ∑ f, a f = (0 + ∑ f : Fin 512, a (lo f)) + ∑ f : Fin 512, a (hi f) := by
  rw [zero_add]
  exact Fin.sum_univ_add (a := 512) (b := 512) a

/-- The two arrangements of the output entry agree. -/
theorem outChunked_eq (xr : Fin 256 → EReal) (wg wu : Fin 256 → Fin 1024 → EReal) (wd : Fin 1024 → EReal) :
    outChunked xr wg wu wd = outFull xr wg wu wd :=
  (sum_halves fun f => hidden xr (fun k => wg k f) (fun k => wu k f) * wd f).symm

end Cert.Spec

end
-- ==== Proof.BlockAt.lean ====
/-
  The output block, entry by entry, over the extended reals.

  A matrix product into a zero accumulator is, at each entry, the plain sum over the contracted axis of the
  operands' products.  So the first half-width product at (p, d) is  Σ_{f<512} h(p, f) · wd(f, d)  with
  h(p, f) = (z · σ z) · u,  z and u the products of row p of the input block with column f of the gate and up
  slices; the second is the same over the last 512 features.  The block's entry is therefore the two-half
  arrangement of the gated unit (`Cert.Spec.outChunked`) of row p of the input block against the weight blocks,
  a half slice of a weight block at feature f being the block at feature f (first half) or 512 + f (second).
-/
import proofs.«108139_j35373350650171_2_alg».proof.Proof.BlockRun
import proofs.«108139_j35373350650171_2_alg».proof.Proof.Spec
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.KernelIdeal.BlockAt

open Cert.KernelIdeal Cert.KernelIdeal.Gen Cert.KernelIdeal.Block

/-! ## The two matrix products as plain sums -/

theorem lhs_in_0 (i : S2048x512.Idx) (q : dot_S2048x256_S256x512_S2048x512_1_0_0_1_n_n.contr.Idx) : (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem rhs_in_1 (i : S2048x512.Idx) (q : dot_S2048x256_S256x512_S2048x512_1_0_0_1_n_n.contr.Idx) : (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- The input-side product [2048, 256] × [256, 512] into zero, at (p, f): the sum over the 256 input features. -/
theorem mm_in (A : FVec Ideal S2048x256 .bf16) (B : FVec Ideal S256x512 .bf16) (p : Fin 2048) (f : Fin 512) :
    matmul dot_S2048x256_S256x512_S2048x512_1_0_0_1_n_n none A B (constant (F := Ideal) S2048x512 .f32 0x00000000#32) (ix2 p f)
      = ∑ k : Fin 256, A (ix2 p k) * B (ix2 k f) := by
  simp only [matmul]
  rw [Ideal.matmul_constant_zero_apply, ← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  have el : dot_S2048x256_S256x512_S2048x512_1_0_0_1_n_n.lhsIdx (ix2 p f) ((contrEquiv1 dot_S2048x256_S256x512_S2048x512_1_0_0_1_n_n 256 rfl rfl).symm k) = ix2 p k := funext fun a => Fin.ext (by
    match a with
    | ⟨0, _⟩ => exact lhs_in_0 _ _
    | ⟨1, _⟩ => exact (dot_S2048x256_S256x512_S2048x512_1_0_0_1_n_n.lhsIdx_val_of_single rfl _ _).trans hk)
  have er : dot_S2048x256_S256x512_S2048x512_1_0_0_1_n_n.rhsIdx (ix2 p f) ((contrEquiv1 dot_S2048x256_S256x512_S2048x512_1_0_0_1_n_n 256 rfl rfl).symm k) = ix2 k f := funext fun a => Fin.ext (by
    match a with
    | ⟨0, _⟩ => exact (dot_S2048x256_S256x512_S2048x512_1_0_0_1_n_n.rhsIdx_val_of_single rfl _ _).trans hk
    | ⟨1, _⟩ => exact rhs_in_1 _ _)
  rw [el, er]

theorem lhs_out_0 (i : S2048x256.Idx) (q : dot_S2048x512_S512x256_S2048x256_1_0_0_1_n_n.contr.Idx) : (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem rhs_out_1 (i : S2048x256.Idx) (q : dot_S2048x512_S512x256_S2048x256_1_0_0_1_n_n.contr.Idx) : (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- The output-side product [2048, 512] × [512, 256] into zero, at (p, d): the sum over the half's 512 hidden features. -/
theorem mm_out (A : FVec Ideal S2048x512 .bf16) (B : FVec Ideal S512x256 .bf16) (p : Fin 2048) (d : Fin 256) :
    matmul dot_S2048x512_S512x256_S2048x256_1_0_0_1_n_n none A B (constant (F := Ideal) S2048x256 .f32 0x00000000#32) (ix2 p d)
      = ∑ f : Fin 512, A (ix2 p f) * B (ix2 f d) := by
  simp only [matmul]
  rw [Ideal.matmul_constant_zero_apply, ← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 p d) ((contrEquiv1 dot_S2048x512_S512x256_S2048x256_1_0_0_1_n_n 512 rfl rfl).symm k) = ix2 p k := funext fun a => Fin.ext (by
    match a with
    | ⟨0, _⟩ => exact lhs_out_0 _ _
    | ⟨1, _⟩ => exact (dot_S2048x512_S512x256_S2048x256_1_0_0_1_n_n.lhsIdx_val_of_single rfl _ _).trans hk)
  have er : dot_S2048x512_S512x256_S2048x256_1_0_0_1_n_n.rhsIdx (ix2 p d) ((contrEquiv1 dot_S2048x512_S512x256_S2048x256_1_0_0_1_n_n 512 rfl rfl).symm k) = ix2 k d := funext fun a => Fin.ext (by
    match a with
    | ⟨0, _⟩ => exact (dot_S2048x512_S512x256_S2048x256_1_0_0_1_n_n.rhsIdx_val_of_single rfl _ _).trans hk
    | ⟨1, _⟩ => exact rhs_out_1 _ _)
  rw [el, er]

/-! ## One half's product -/

/-- One half: gate, up and down slices `wg`, `wu`, `wdn` of that half against the rows `v`, at (p, d). -/
theorem half_at (v : FVec Ideal S2048x256 .bf16) (wg wu : FVec Ideal S256x512 .bf16) (wdn : FVec Ideal S512x256 .bf16)
    (p : Fin 2048) (d : Fin 256) :
    matmul dot_S2048x512_S512x256_S2048x256_1_0_0_1_n_n none
        (truncf .bf16 (mulf (mulf (matmul dot_S2048x256_S256x512_S2048x512_1_0_0_1_n_n none v wg (constant (F := Ideal) S2048x512 .f32 0x00000000#32))
            (logistic (matmul dot_S2048x256_S256x512_S2048x512_1_0_0_1_n_n none v wg (constant (F := Ideal) S2048x512 .f32 0x00000000#32))))
          (matmul dot_S2048x256_S256x512_S2048x512_1_0_0_1_n_n none v wu (constant (F := Ideal) S2048x512 .f32 0x00000000#32))) bitsLt_bf16_f32)
        wdn (constant (F := Ideal) S2048x256 .f32 0x00000000#32) (ix2 p d)
      = ∑ f : Fin 512, Cert.Spec.hidden (fun k => v (ix2 p k)) (fun k => wg (ix2 k f)) (fun k => wu (ix2 k f)) * wdn (ix2 f d) := by
  rw [mm_out]
  refine Finset.sum_congr rfl fun f _ => ?_
  show (matmul dot_S2048x256_S256x512_S2048x512_1_0_0_1_n_n none v wg (constant (F := Ideal) S2048x512 .f32 0x00000000#32) (ix2 p f)
        * Ideal.logistic (matmul dot_S2048x256_S256x512_S2048x512_1_0_0_1_n_n none v wg (constant (F := Ideal) S2048x512 .f32 0x00000000#32) (ix2 p f)))
      * matmul dot_S2048x256_S256x512_S2048x512_1_0_0_1_n_n none v wu (constant (F := Ideal) S2048x512 .f32 0x00000000#32) (ix2 p f) * wdn (ix2 f d) = _
  rw [mm_in, mm_in]
  rfl

/-! ## The payloads at an entry -/

/-- The accumulator after the second half: what it held plus the second half's product. -/
theorem pay1_at (v2 : FVec Ideal S2048x256 .bf16) (v26 : FVec Ideal S256x512 .bf16) (v27 : Vec Ideal S1x256x512 .bf16)
    (v29 : Vec Ideal S1x512x256 .bf16) (v38 : Vec Ideal S2048x256 .f32) (p : Fin 2048) (d : Fin 256) :
    k0_pay1 (F := Ideal) v2 v26 v27 v29 v38 (ix2 p d)
      = v38 (ix2 p d) + ∑ f : Fin 512, Cert.Spec.hidden (fun k => v2 (ix2 p k)) (fun k => v26 (ix2 k f))
          (fun k => v27 (ix3 (0 : Fin 1) k f)) * v29 (ix3 (0 : Fin 1) f d) := by
  unfold k0_pay1
  refine (congrFun (shapeCast_self _ _) (ix2 p d)).trans ?_
  refine congrArg (v38 (ix2 p d) + ·) ?_
  refine (half_at _ _ _ _ p d).trans ?_
  refine Finset.sum_congr rfl fun f _ => ?_
  rw [shapeCast_1ab_ab_apply]
  simp only [shapeCast_1ab_ab_apply]

/-- The accumulator after the first half: what it held plus the first half's product. -/
theorem pay5_at (v0 : Vec Ideal S1x2048x256 .f32) (v7 v9 : Vec Ideal S1x256x512 .bf16)
    (v11 : Vec Ideal S1x512x256 .bf16) (v20 : Vec Ideal S2048x256 .f32) (p : Fin 2048) (d : Fin 256) :
    k0_pay5 (F := Ideal) v0 v7 v9 v11 v20 (ix2 p d)
      = v20 (ix2 p d) + ∑ f : Fin 512, Cert.Spec.hidden (fun k => v0 (ix3 (0 : Fin 1) p k)) (fun k => v7 (ix3 (0 : Fin 1) k f))
          (fun k => v9 (ix3 (0 : Fin 1) k f)) * v11 (ix3 (0 : Fin 1) f d) := by
  unfold k0_pay5 k0_pay3
  refine (congrFun (shapeCast_self _ _) (ix2 p d)).trans ?_
  refine congrArg (v20 (ix2 p d) + ·) ?_
  refine (half_at _ _ _ _ p d).trans ?_
  refine Finset.sum_congr rfl fun f _ => ?_
  rw [shapeCast_1ab_ab_apply]
  simp only [shapeCast_1ab_ab_apply, truncf_apply]

/-- The zeroed accumulator. -/
theorem pay4_at (p : Fin 2048) (d : Fin 256) : k0_pay4 (F := Ideal) (ix2 p d) = 0 := by
  unfold k0_pay4
  refine (congrFun (shapeCast_self _ _) (ix2 p d)).trans ?_
  exact Ideal.ofBits_zero_f32

/-- The rows the second half uses are the input block's rows. -/
theorem pay3_at (v0 : Vec Ideal S1x2048x256 .f32) (p : Fin 2048) (k : Fin 256) :
    k0_pay3 (F := Ideal) v0 (ix2 p k) = v0 (ix3 (0 : Fin 1) p k) := by
  unfold k0_pay3
  exact shapeCast_1ab_ab_apply _ _ p k

/-- The second half's gate slice, with its unit axis dropped. -/
theorem pay6_at (v25 : Vec Ideal S1x256x512 .bf16) (k : Fin 256) (f : Fin 512) :
    k0_pay6 (F := Ideal) v25 (ix2 k f) = v25 (ix3 (0 : Fin 1) k f) := by
  unfold k0_pay6
  exact shapeCast_1ab_ab_apply _ _ k f

/-! ## Half slices of the weight blocks -/

/-- Feature `f` of the first-half slice of a gate or up block is feature `f` of the block. -/
theorem featLo_idx (k : Fin 256) (f : Fin 512) :
    rFeatLo.idx (ix3 (0 : Fin 1) k f) = ix3 (0 : Fin 1) k (Cert.Spec.lo f) :=
  funext fun a => Fin.ext (by
    match a with
    | ⟨0, _⟩ => rfl
    | ⟨1, _⟩ => show 0 + 1 * k.val = k.val; omega
    | ⟨2, _⟩ => show 0 + 1 * f.val = f.val; omega)

/-- Feature `f` of the second-half slice of a gate or up block is feature `512 + f` of the block. -/
theorem featHi_idx (k : Fin 256) (f : Fin 512) :
    rFeatHi.idx (ix3 (0 : Fin 1) k f) = ix3 (0 : Fin 1) k (Cert.Spec.hi f) :=
  funext fun a => Fin.ext (by
    match a with
    | ⟨0, _⟩ => rfl
    | ⟨1, _⟩ => show 0 + 1 * k.val = k.val; omega
    | ⟨2, _⟩ => show 512 + 1 * f.val = 512 + f.val; omega)

/-- Row `f` of the first-half slice of a down block is row `f` of the block. -/
theorem downLo_idx (f : Fin 512) (d : Fin 256) :
    rDownLo.idx (ix3 (0 : Fin 1) f d) = ix3 (0 : Fin 1) (Cert.Spec.lo f) d :=
  funext fun a => Fin.ext (by
    match a with
    | ⟨0, _⟩ => rfl
    | ⟨1, _⟩ => show 0 + 1 * f.val = f.val; omega
    | ⟨2, _⟩ => show 0 + 1 * d.val = d.val; omega)

/-- Row `f` of the second-half slice of a down block is row `512 + f` of the block. -/
theorem downHi_idx (f : Fin 512) (d : Fin 256) :
    rDownHi.idx (ix3 (0 : Fin 1) f d) = ix3 (0 : Fin 1) (Cert.Spec.hi f) d :=
  funext fun a => Fin.ext (by
    match a with
    | ⟨0, _⟩ => rfl
    | ⟨1, _⟩ => show 512 + 1 * f.val = 512 + f.val; omega
    | ⟨2, _⟩ => show 0 + 1 * d.val = d.val; omega)

/-! ## The block -/

/-- Entry (p, d) of the output block is the two-half gated unit of row p of the input block against the weight blocks. -/
theorem block_at (x0 : Vec Ideal S1x2048x256 .f32) (x1 x2 : Vec Ideal S1x256x1024 .bf16) (x3 : Vec Ideal S1x1024x256 .bf16)
    (p : Fin 2048) (d : Fin 256) :
    blockOut (F := Ideal) x0 x1 x2 x3 (ix3 (0 : Fin 1) p d)
      = Cert.Spec.outChunked (fun k => x0 (ix3 (0 : Fin 1) p k)) (fun k f => x1 (ix3 (0 : Fin 1) k f))
          (fun k f => x2 (ix3 (0 : Fin 1) k f)) (fun f => x3 (ix3 (0 : Fin 1) f d)) := by
  unfold blockOut k0_pay2
  refine (shapeCast_ab_1ab_apply _ _ (0 : Fin 1) p d).trans ?_
  rw [pay1_at, pay5_at, pay4_at]
  unfold Cert.Spec.outChunked
  simp only [pay3_at, pay6_at, View.ld, featLo_idx, featHi_idx, downLo_idx, downHi_idx]

end Cert.KernelIdeal.BlockAt

end
-- ==== Proof.RegionIdx.lean ====
/-
  The grid and its blocks.  The grid is 8 groups × 8 token tiles.  At point (g, τ) the input window reads rows
  2048·τ … 2048·τ + 2047 of group g of the regrouped input, the three weight windows read group g's whole
  matrices, and the output window writes rows 2048·τ … 2048·τ + 2047 of group g of the result.  So row p of
  the point's input block is row (g, 2048·τ + p) of the input, the weight blocks are group g's weights, and
  every (g, t) lies in exactly the block of the point (g, t / 2048), so the output blocks cover the result array.
-/
import proofs.«108139_j35373350650171_2_alg».proof.Proof.BlockAt
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen

variable (m : (ℓ : Loc nD τ sig) → Buf (Elt Ideal) ℓ) (ρ : Dev nD → PrngReg)

/-- The index maps over the 64 grid points: input and output windows sit at block (g, τ, 0), the weight windows
    at block (g, 0, 0), with g, τ below 8. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (0 : Fin 3) < 8 ∧ win0_4.index t (1 : Fin 3) < 8 ∧ win0_4.index t (2 : Fin 3) = 0 :=
  (by decide +kernel : ∀ t : Fin grid0.N, _)

/-- Every block (g, τ) of the result is some point's. -/
theorem idx_onto : ∀ (q0 : Fin 8) (q1 : Fin 8), ∃ t : Fin cfg0.N, win0_4.index t = ![q0.val, q1.val, 0] :=
  (by decide +kernel : ∀ (q0 : Fin 8) (q1 : Fin 8), ∃ t : Fin grid0.N, win0_4.index t = ![q0.val, q1.val, 0])

/-! ## The input blocks, read off the arrays -/

/-- Row p of the point's input block is row (g, r) of the regrouped input, r = 2048·τ + p. -/
theorem iblk0_at (c : Dev nD) (t : Fin cfg0.N) (p : Fin 2048) (k : Fin 256) (g : Fin 8) (r : Fin 16384)
    (hg : win0_0.index t (0 : Fin 3) = g.val) (hr : win0_0.index t (1 : Fin 3) * 2048 + p.val = r.val)
    (h2 : win0_0.index t (2 : Fin 3) = 0) :
    iblk m c 0 t (ix3 (0 : Fin 1) p k) = V m c main_v0 (ix3 g r k) := by
  unfold iblk
  rw [View.read_apply]
  show V m c main_v0 (((cfg0.win 0).blk t).view.emb (ix3 (0 : Fin 1) p k)) = _
  refine congrArg (V m c main_v0) (funext fun a => Fin.ext ?_)
  match a with
  | ⟨0, _⟩ => show win0_0.index t (0 : Fin 3) * 1 + 1 * 0 = g.val; omega
  | ⟨1, _⟩ => show win0_0.index t (1 : Fin 3) * 2048 + 1 * p.val = r.val; omega
  | ⟨2, _⟩ => show win0_0.index t (2 : Fin 3) * 256 + 1 * k.val = k.val; omega

/-- The point's gate block is group g's gate weights. -/
theorem iblk1_at (c : Dev nD) (t : Fin cfg0.N) (k : Fin 256) (f : Fin 1024) (g : Fin 8)
    (hg : win0_1.index t (0 : Fin 3) = g.val) (h1 : win0_1.index t (1 : Fin 3) = 0) (h2 : win0_1.index t (2 : Fin 3) = 0) :
    iblk m c 1 t (ix3 (0 : Fin 1) k f) = V m c main_v1 (ix3 g k f) := by
  unfold iblk
  rw [View.read_apply]
  show V m c main_v1 (((cfg0.win 1).blk t).view.emb (ix3 (0 : Fin 1) k f)) = _
  refine congrArg (V m c main_v1) (funext fun a => Fin.ext ?_)
  match a with
  | ⟨0, _⟩ => show win0_1.index t (0 : Fin 3) * 1 + 1 * 0 = g.val; omega
  | ⟨1, _⟩ => show win0_1.index t (1 : Fin 3) * 256 + 1 * k.val = k.val; omega
  | ⟨2, _⟩ => show win0_1.index t (2 : Fin 3) * 1024 + 1 * f.val = f.val; omega

/-- The point's up block is group g's up weights. -/
theorem iblk2_at (c : Dev nD) (t : Fin cfg0.N) (k : Fin 256) (f : Fin 1024) (g : Fin 8)
    (hg : win0_2.index t (0 : Fin 3) = g.val) (h1 : win0_2.index t (1 : Fin 3) = 0) (h2 : win0_2.index t (2 : Fin 3) = 0) :
    iblk m c 2 t (ix3 (0 : Fin 1) k f) = V m c main_v2 (ix3 g k f) := by
  unfold iblk
  rw [View.read_apply]
  show V m c main_v2 (((cfg0.win 2).blk t).view.emb (ix3 (0 : Fin 1) k f)) = _
  refine congrArg (V m c main_v2) (funext fun a => Fin.ext ?_)
  match a with
  | ⟨0, _⟩ => show win0_2.index t (0 : Fin 3) * 1 + 1 * 0 = g.val; omega
  | ⟨1, _⟩ => show win0_2.index t (1 : Fin 3) * 256 + 1 * k.val = k.val; omega
  | ⟨2, _⟩ => show win0_2.index t (2 : Fin 3) * 1024 + 1 * f.val = f.val; omega

/-- The point's down block is group g's down weights. -/
theorem iblk3_at (c : Dev nD) (t : Fin cfg0.N) (f : Fin 1024) (d : Fin 256) (g : Fin 8)
    (hg : win0_3.index t (0 : Fin 3) = g.val) (h1 : win0_3.index t (1 : Fin 3) = 0) (h2 : win0_3.index t (2 : Fin 3) = 0) :
    iblk m c 3 t (ix3 (0 : Fin 1) f d) = V m c main_v3 (ix3 g f d) := by
  unfold iblk
  rw [View.read_apply]
  show V m c main_v3 (((cfg0.win 3).blk t).view.emb (ix3 (0 : Fin 1) f d)) = _
  refine congrArg (V m c main_v3) (funext fun a => Fin.ext ?_)
  match a with
  | ⟨0, _⟩ => show win0_3.index t (0 : Fin 3) * 1 + 1 * 0 = g.val; omega
  | ⟨1, _⟩ => show win0_3.index t (1 : Fin 3) * 1024 + 1 * f.val = f.val; omega
  | ⟨2, _⟩ => show win0_3.index t (2 : Fin 3) * 256 + 1 * d.val = d.val; omega

/-! ## The cover -/

/-- An index of the result is in point `t`'s block iff each coordinate is in the block's range on its axis. -/
theorem mem_blk (t : Fin cfg0.N) (i : S8x16384x256.Idx) :
    i ∈ ((cfg0.win 4).blk t).view.set ↔ ∀ a : Fin 3, win0_4.index t a * S1x2048x256.size a ≤ (i a).val
      ∧ (i a).val < win0_4.index t a * S1x2048x256.size a + S1x2048x256.size a := by
  show i ∈ ((View.whole main_v4).slice (win0_4.rect t)).set ↔ _
  rw [View.set_slice_whole, Rect.mem_set_unit]
  exact Iff.rfl

/-- Every index (g, t, d) of the result lies in the block of the point (g, t / 2048). -/
theorem cover (i : S8x16384x256.Idx) :
    ∃ t : Fin cfg0.N, (cfg0.win 4).flush t = true ∧ i ∈ ((cfg0.win 4).blk t).view.set := by
  have hi0 : (i 0).val < 8 := (i 0).isLt
  have hi1 : (i 1).val < 16384 := (i 1).isLt
  have hi2 : (i 2).val < 256 := (i 2).isLt
  obtain ⟨t, ht⟩ := idx_onto ⟨(i 0).val, hi0⟩ ⟨(i 1).val / 2048, by omega⟩
  have q0 : win0_4.index t (0 : Fin 3) = (i 0).val := congrFun ht 0
  have q1 : win0_4.index t (1 : Fin 3) = (i 1).val / 2048 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 256 ≤ (i 2).val ∧ (i 2).val < win0_4.index t (2 : Fin 3) * 256 + 256; omega

end Cert.KernelIdeal.Region

end
-- ==== Proof.ArrSpec.lean ====
/-
  The grouped result as one array.  Indexed by (group g, token t of the group, output feature d), its entry is
  the gated unit (`Cert.Spec.outFull`) of row (g, t) of the regrouped input against group g's gate and up weights
  and column d of group g's down weights.  Both programs regroup the input with the same reshape before and
  flatten the result with the same reshape after, so it is at this array that they are compared.
-/
import proofs.«108139_j35373350650171_2_alg».proof.Proof.Spec
import Idealize.ShloMosaic.Lib.ValueIdx

noncomputable section

namespace Cert.Spec

open Idealize.ShloMosaic Idealize.ShloMosaic.ValueIdx

/-- Entry (g, t, d) of the grouped result. -/
def rowOut (X : (⟨3, ![8, 16384, 256]⟩ : Shape).Idx → EReal) (WG WU : (⟨3, ![8, 256, 1024]⟩ : Shape).Idx → EReal)
    (WD : (⟨3, ![8, 1024, 256]⟩ : Shape).Idx → EReal) (g : Fin 8) (t : Fin 16384) (d : Fin 256) : EReal :=
  outFull (fun k => X (ix3 g t k)) (fun k f => WG (ix3 g k f)) (fun k f => WU (ix3 g k f)) (fun f => WD (ix3 g f d))

/-- The grouped result, as a function of the regrouped input and the three weight arrays. -/
def arrOut (X : (⟨3, ![8, 16384, 256]⟩ : Shape).Idx → EReal) (WG WU : (⟨3, ![8, 256, 1024]⟩ : Shape).Idx → EReal)
    (WD : (⟨3, ![8, 1024, 256]⟩ : Shape).Idx → EReal) : (⟨3, ![8, 16384, 256]⟩ : Shape).Idx → EReal :=
  fun i => rowOut X WG WU WD (i 0) (i 1) (i 2)

theorem arrOut_ix3 (X : (⟨3, ![8, 16384, 256]⟩ : Shape).Idx → EReal) (WG WU : (⟨3, ![8, 256, 1024]⟩ : Shape).Idx → EReal)
    (WD : (⟨3, ![8, 1024, 256]⟩ : Shape).Idx → EReal) (g : Fin 8) (t : Fin 16384) (d : Fin 256) :
    arrOut X WG WU WD (ix3 g t d) = rowOut X WG WU WD g t d := rfl

end Cert.Spec

end
-- ==== Proof.Region.lean ====
/-
  From blocks to the array.  At grid point (g, τ) row p of the input block is row (g, 2048·τ + p) of the
  regrouped input and the weight blocks are group g's weights (`RegionIdx`), so entry (p, d) of the block the
  point writes back — the two-half gated unit of that row (`BlockAt.block_at`), which is the full-width one
  (`Cert.Spec.outChunked_eq`) — is entry (g, 2048·τ + p, d) of the grouped result (`Cert.Spec.arrOut`) of the arrays
  as the region finds them.  What a point writes back is therefore its block of that one array function, and
  since the blocks cover the array, the array ends holding it.
-/
import proofs.«108139_j35373350650171_2_alg».proof.Proof.RegionIdx
import proofs.«108139_j35373350650171_2_alg».proof.Proof.ArrSpec
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen

variable (m : (ℓ : Loc nD τ sig) → Buf (Elt Ideal) ℓ) (ρ : Dev nD → PrngReg)

/-! ## One point, over plain blocks and arrays -/

/-- One point's block entry, with the blocks and arrays as plain variables: if row p of the input block is row
    (g, r) of the input and the weight blocks are group g's weights, the block's entry (p, d) is the grouped
    result's entry (g, r, d). -/
theorem point_eq (X : S8x16384x256.Idx → EReal) (WG WU : S8x256x1024.Idx → EReal) (WD : S8x1024x256.Idx → EReal)
    (x0 : Vec Ideal S1x2048x256 .f32) (x1 x2 : Vec Ideal S1x256x1024 .bf16) (x3 : Vec Ideal S1x1024x256 .bf16)
    (g : Fin 8) (r : Fin 16384) (p : Fin 2048) (d : Fin 256)
    (h0 : ∀ k : Fin 256, x0 (ix3 (0 : Fin 1) p k) = X (ix3 g r k))
    (h1 : ∀ (k : Fin 256) (f : Fin 1024), x1 (ix3 (0 : Fin 1) k f) = WG (ix3 g k f))
    (h2 : ∀ (k : Fin 256) (f : Fin 1024), x2 (ix3 (0 : Fin 1) k f) = WU (ix3 g k f))
    (h3 : ∀ f : Fin 1024, x3 (ix3 (0 : Fin 1) f d) = WD (ix3 g f d)) :
    Block.blockOut (F := Ideal) x0 x1 x2 x3 (ix3 (0 : Fin 1) p d) = Cert.Spec.arrOut X WG WU WD (ix3 g r d) := by
  refine (BlockAt.block_at x0 x1 x2 x3 p d).trans ?_
  refine (Cert.Spec.outChunked_eq _ _ _ _).trans ?_
  show _ = Cert.Spec.outFull (fun k => X (ix3 g r k)) (fun k f => WG (ix3 g k f)) (fun k f => WU (ix3 g k f)) (fun f => WD (ix3 g f d))
  exact congr (congr (congr (congrArg Cert.Spec.outFull (funext h0)) (funext fun k => funext fun f => h1 k f))
    (funext fun k => funext fun f => h2 k f)) (funext h3)

/-- The same at a block index `y` and an array index `i` given by their coordinates. -/
theorem point_eq_at (X : S8x16384x256.Idx → EReal) (WG WU : S8x256x1024.Idx → EReal) (WD : S8x1024x256.Idx → EReal)
    (x0 : Vec Ideal S1x2048x256 .f32) (x1 x2 : Vec Ideal S1x256x1024 .bf16) (x3 : Vec Ideal S1x1024x256 .bf16)
    (y : S1x2048x256.Idx) (i : S8x16384x256.Idx) (g : Fin 8) (r : Fin 16384) (p : Fin 2048) (d : Fin 256)
    (hy : y = ix3 (0 : Fin 1) p d) (hi : i = ix3 g r d)
    (h0 : ∀ k : Fin 256, x0 (ix3 (0 : Fin 1) p k) = X (ix3 g r k))
    (h1 : ∀ (k : Fin 256) (f : Fin 1024), x1 (ix3 (0 : Fin 1) k f) = WG (ix3 g k f))
    (h2 : ∀ (k : Fin 256) (f : Fin 1024), x2 (ix3 (0 : Fin 1) k f) = WU (ix3 g k f))
    (h3 : ∀ f : Fin 1024, x3 (ix3 (0 : Fin 1) f d) = WD (ix3 g f d)) :
    Block.blockOut (F := Ideal) x0 x1 x2 x3 y = Cert.Spec.arrOut X WG WU WD i := by
  subst hy hi
  exact point_eq X WG WU WD x0 x1 x2 x3 g r p d h0 h1 h2 h3

/-! ## What a point writes back -/

/-- The grouped result of the arrays as the region finds them. -/
abbrev result (c : Dev nD) : S8x16384x256.Idx → EReal :=
  Cert.Spec.arrOut (V m c main_v0) (V m c main_v1) (V m c main_v2) (V m c main_v3)

/-- What point `t` writes back is block `t` of the grouped result. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  unfold outsAt0
  rw [Block.out_eq]
  obtain ⟨e00, e01, e02, e10, e11, e12, e20, e21, e22, e30, e31, e32, b0, b1, e42⟩ := idx_facts t
  funext j
  have hj0 : (j 0).val < 1 := (j 0).isLt
  have hj1 : (j 1).val < 2048 := (j 1).isLt
  have hj2 : (j 2).val < 256 := (j 2).isLt
  have hr : win0_4.index t (1 : Fin 3) * 2048 + (j 1).val < 16384 := by omega
  have hy : (j : S1x2048x256.Idx) = ix3 (0 : Fin 1) (⟨(j 1).val, hj1⟩ : Fin 2048) (⟨(j 2).val, hj2⟩ : Fin 256) :=
    funext fun a => Fin.ext (by
      match a with
      | ⟨0, _⟩ => show (j 0).val = 0; omega
      | ⟨1, _⟩ => rfl
      | ⟨2, _⟩ => rfl)
  have hi : ((cfg0.win 4).blk t).view.emb j
      = ix3 (⟨win0_4.index t (0 : Fin 3), b0⟩ : Fin 8) (⟨win0_4.index t (1 : Fin 3) * 2048 + (j 1).val, hr⟩ : Fin 16384)
          (⟨(j 2).val, hj2⟩ : Fin 256) :=
    funext fun a => Fin.ext (by
      match a with
      | ⟨0, _⟩ => show win0_4.index t (0 : Fin 3) * 1 + 1 * (j 0).val = win0_4.index t (0 : Fin 3); omega
      | ⟨1, _⟩ => show win0_4.index t (1 : Fin 3) * 2048 + 1 * (j 1).val = win0_4.index t (1 : Fin 3) * 2048 + (j 1).val; omega
      | ⟨2, _⟩ => show win0_4.index t (2 : Fin 3) * 256 + 1 * (j 2).val = (j 2).val; omega)
  show Block.blockOut (F := Ideal) (iblk m c 0 t) (iblk m c 1 t) (iblk m c 2 t) (iblk m c 3 t) j
    = result m c (((cfg0.win 4).blk t).view.emb j)
  exact point_eq_at (V m c main_v0) (V m c main_v1) (V m c main_v2) (V m c main_v3)
    (iblk m c 0 t) (iblk m c 1 t) (iblk m c 2 t) (iblk m c 3 t) j (((cfg0.win 4).blk t).view.emb j)
    (⟨win0_4.index t (0 : Fin 3), b0⟩ : Fin 8) (⟨win0_4.index t (1 : Fin 3) * 2048 + (j 1).val, hr⟩ : Fin 16384)
    (⟨(j 1).val, hj1⟩ : Fin 2048) (⟨(j 2).val, hj2⟩ : Fin 256) hy hi
    (fun k => iblk0_at m c t (⟨(j 1).val, hj1⟩ : Fin 2048) k (⟨win0_4.index t (0 : Fin 3), b0⟩ : Fin 8)
      (⟨win0_4.index t (1 : Fin 3) * 2048 + (j 1).val, hr⟩ : Fin 16384) e00
      (by show win0_0.index t (1 : Fin 3) * 2048 + (j 1).val = win0_4.index t (1 : Fin 3) * 2048 + (j 1).val; omega) e02)
    (fun k f => iblk1_at m c t k f (⟨win0_4.index t (0 : Fin 3), b0⟩ : Fin 8) e10 e11 e12)
    (fun k f => iblk2_at m c t k f (⟨win0_4.index t (0 : Fin 3), b0⟩ : Fin 8) e20 e21 e22)
    (fun f => iblk3_at m c t f (⟨(j 2).val, hj2⟩ : Fin 256) (⟨win0_4.index t (0 : Fin 3), b0⟩ : Fin 8) e30 e31 e32)

/-! ## The array after the run -/

/-- The result array ends holding the grouped result of the arrays as the region finds them. -/
theorem final (c : Dev nD) : (dats m 0 c).arrAt 4 cfg0.N = result m c :=
  (dats m 0 c).arrAt_eq_of_cover 4 (result m c) (fun t _ => flushed_eq m c t) (cover)

end Cert.KernelIdeal.Region

end
-- ==== Proof.Whole.lean ====
/-
  The whole kernel program.  Before the region the host regroups the input (a reshape of [131072, 256] to
  [8, 16384, 256]) and changes the weights' float format, which over the extended reals changes nothing; after
  the region it flattens the region's array back to [131072, 256].  So the program's result is the flattening of
  the grouped result (`Cert.Spec.arrOut`) of the regrouped launch input and the launch weights, and the run ends
  with the result buffer holding it and the arguments unchanged.
-/
import proofs.«108139_j35373350650171_2_alg».proof.Proof.Region
import Idealize.ShloMosaic.Lib.StableHlo.Run
import Idealize.ShloMosaic.Lib.Tactic

noncomputable section

open Idealize.ShloMosaic Idealize.ShloMosaic.TcCoe Idealize.SL.Sem Idealize.ShloMosaic.StableHlo
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-! ## The arrays the region finds -/

/-- The region's input is the launch input regrouped. -/
theorem V_v0 (c : Dev nD) : (V m c main_v0 : S8x16384x256.Idx → EReal)
    = shapeCast S8x16384x256 (m ((c : Thread nD τ).loc main_arg0)) shapeCasts_S131072x256_S8x16384x256 := by
  show StableHlo.after hostOps0 (fun b => m (c, b)) (Proc.devRef .tc main_v0) = _
  after_results
  rfl

/-- The region's gate weights are the launch gate weights (a change of float format is the identity here). -/
theorem V_v1 (c : Dev nD) : (V m c main_v1 : S8x256x1024.Idx → EReal) = m ((c : Thread nD τ).loc main_arg1) := by
  show StableHlo.after hostOps0 (fun b => m (c, b)) (Proc.devRef .tc main_v1) = _
  after_results
  rfl

/-- The region's up weights are the launch up weights. -/
theorem V_v2 (c : Dev nD) : (V m c main_v2 : S8x256x1024.Idx → EReal) = m ((c : Thread nD τ).loc main_arg2) := by
  show StableHlo.after hostOps0 (fun b => m (c, b)) (Proc.devRef .tc main_v2) = _
  after_results
  rfl

/-- The region's down weights are the launch down weights. -/
theorem V_v3 (c : Dev nD) : (V m c main_v3 : S8x1024x256.Idx → EReal) = m ((c : Thread nD τ).loc main_arg3) := by
  show StableHlo.after hostOps0 (fun b => m (c, b)) (Proc.devRef .tc main_v3) = _
  after_results
  rfl

/-! ## The result -/

/-- The grouped result of the launch arguments. -/
def grouped (c : Dev nD) : S8x16384x256.Idx → EReal :=
  Cert.Spec.arrOut (shapeCast S8x16384x256 (m ((c : Thread nD τ).loc main_arg0)) shapeCasts_S131072x256_S8x16384x256)
    (m ((c : Thread nD τ).loc main_arg1)) (m ((c : Thread nD τ).loc main_arg2)) (m ((c : Thread nD τ).loc main_arg3))

/-- The program's result: the grouped result flattened. -/
def out (c : Dev nD) : S131072x256.Idx → EReal :=
  shapeCast S131072x256 (grouped m c) shapeCasts_S8x16384x256_S131072x256

/-- The region's array ends holding the grouped result of the launch arguments. -/
theorem region_eq (c : Dev nD) : (dats m 0 c).arrAt 4 cfg0.N = grouped m c := by
  have e : Cert.Spec.arrOut (V m c main_v0) (V m c main_v1) (V m c main_v2) (V m c main_v3) = grouped m c := by
    unfold grouped
    rw [V_v0 m c, V_v1 m c, V_v2 m c, V_v3 m c]
  exact (Region.final m c).trans e

/-- The host line after the region flattens the region's array. -/
theorem tail_eq (c : Dev nD) :
    (Pipeline.afterTail₀ cfgs (dats m) 0 (V0 m) [hostOps1] c main_v5 : S131072x256.Idx → EReal) = out m c := by
  have e : Pipeline.withArrays (cfgs 0).spec c (V0 m c) (fun w => (dats m 0 c).arrAt w (cfgs 0).N) (Proc.devRef .tc main_v4)
      = grouped m c :=
    (Pipeline.withArrays_arr spec0 launch0.win.arr_inj c _ _ 4).trans (region_eq m c)
  unfold Pipeline.afterTail₀
  show StableHlo.after hostOps1 _ (Proc.devRef .tc main_v5) = _
  after_results
  rw [e]
  rfl

/-! ## The run -/

/-- Every weakly fair execution of the program terminates with the result buffer at `out` and the arguments unchanged. -/
theorem run : θ_run defs (onTc (τ := τ) (main (F := Ideal))) ⟨m, fun _ => 0, ρ⟩ fun r => ∀ c : Dev nD,
      r.2.mem ((c.tc : Thread nD τ).loc main_v5) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Whole

end
-- ==== Proof.RefRow.lean ====
/-
  The reference, entry by entry.  Before its final reshape the reference holds an array indexed by
  (group g, token t of the group, output feature d); its entry there is the gated unit of row (g, t) of the
  regrouped input against group g's gate and up weights and column d of group g's down weights — one sum over
  all 1024 hidden features (`Cert.Spec.outFull`).  The reference's sigmoid is spelt 1 / (1 + e^(−z)) with the
  constant one; that constant is the extended real 1, which makes it the logistic function of the specification.
-/
import proofs.«108139_j35373350650171_2_alg».proof.Proof.Gen.ReferenceIdeal.Read
import proofs.«108139_j35373350650171_2_alg».proof.Proof.Spec

noncomputable section

namespace Cert.RefRow

open Cert.ReferenceIdeal Cert.ReferenceIdeal.Read Idealize.ShloMosaic Idealize.ShloMosaic.ValueIdx

/-- The reference's entry at (g, t, d) is the full-width gated unit of row (g, t) against group g's weights. -/
theorem ref_at (x0 : (⟨S131072x256, .f32⟩ : BufTy).Contents (Elt Ideal)) (x1 x2 : (⟨S8x256x1024, .f32⟩ : BufTy).Contents (Elt Ideal))
    (x3 : (⟨S8x1024x256, .f32⟩ : BufTy).Contents (Elt Ideal)) (g : Fin 8) (t : Fin 16384) (d : Fin 256) :
    val_main_v5 (F := Ideal) x0 x1 x2 x3 (ix3 g t d)
      = Cert.Spec.outFull (fun k => val_main_v0 (F := Ideal) x0 (ix3 g t k))
          (fun k f => x1 (ix3 g k f)) (fun k f => x2 (ix3 g k f)) (fun f => x3 (ix3 g f d)) := by
  have e5l : ∀ f : Fin 1024, lidx_main_v5 (ix3 g t d) f = ix3 g t f := fun f => funext fun a => by
    match a with | ⟨0, _⟩ => rfl | ⟨1, _⟩ => rfl | ⟨2, _⟩ => rfl
  have e5r : ∀ f : Fin 1024, ridx_main_v5 (ix3 g t d) f = ix3 g f d := fun f => funext fun a => by
    match a with | ⟨0, _⟩ => rfl | ⟨1, _⟩ => rfl | ⟨2, _⟩ => rfl
  have e1l : ∀ (f : Fin 1024) (k : Fin 256), lidx_main_v1 (ix3 g t f) k = ix3 g t k := fun f k => funext fun a => by
    match a with | ⟨0, _⟩ => rfl | ⟨1, _⟩ => rfl | ⟨2, _⟩ => rfl
  have e1r : ∀ (f : Fin 1024) (k : Fin 256), ridx_main_v1 (ix3 g t f) k = ix3 g k f := fun f k => funext fun a => by
    match a with | ⟨0, _⟩ => rfl | ⟨1, _⟩ => rfl | ⟨2, _⟩ => rfl
  have e2l : ∀ (f : Fin 1024) (k : Fin 256), lidx_main_v2 (ix3 g t f) k = ix3 g t k := fun f k => funext fun a => by
    match a with | ⟨0, _⟩ => rfl | ⟨1, _⟩ => rfl | ⟨2, _⟩ => rfl
  have e2r : ∀ (f : Fin 1024) (k : Fin 256), ridx_main_v2 (ix3 g t f) k = ix3 g k f := fun f k => funext fun a => by
    match a with | ⟨0, _⟩ => rfl | ⟨1, _⟩ => rfl | ⟨2, _⟩ => rfl
  rw [val_main_v5_apply]
  unfold Cert.Spec.outFull
  refine Finset.sum_congr rfl fun f _ => ?_
  rw [e5l, e5r, val_main_v4_apply, val_main_v3_apply, val_main_call0_v5_apply, val_main_call0_v4_apply,
    val_main_call0_cst_0_apply, val_main_call0_v3_apply, val_main_call0_v2_apply, val_main_call0_cst_apply,
    val_main_call0_v1_apply, val_main_call0_v0_apply, val_main_v1_apply, val_main_v2_apply]
  simp only [e1l, e1r, e2l, e2r, Ideal.mulf_def, Ideal.hostDivf_def, Ideal.addf_def, Ideal.hostUnary_exp_def,
    Ideal.hostNegf_def, Ideal.negf_def, Ideal.ofBits_def, Ideal.ofBits_one_f32]
  rfl

end Cert.RefRow

end
-- ==== Proof.RefArr.lean ====
/-
  The reference's array before its final reshape is the grouped result (`Cert.Spec.arrOut`) of its regrouped
  input and the three weight arrays: entry by entry this is `Cert.RefRow.ref_at`.
-/
import proofs.«108139_j35373350650171_2_alg».proof.Proof.RefRow
import proofs.«108139_j35373350650171_2_alg».proof.Proof.ArrSpec

noncomputable section

namespace Cert.RefRow

open Cert.ReferenceIdeal Cert.ReferenceIdeal.Read Idealize.ShloMosaic Idealize.ShloMosaic.ValueIdx

/-- The reference's grouped array is the grouped result of its regrouped input. -/
theorem ref_arr (x0 : (⟨S131072x256, .f32⟩ : BufTy).Contents (Elt Ideal)) (x1 x2 : (⟨S8x256x1024, .f32⟩ : BufTy).Contents (Elt Ideal))
    (x3 : (⟨S8x1024x256, .f32⟩ : BufTy).Contents (Elt Ideal)) :
    val_main_v5 (F := Ideal) x0 x1 x2 x3 = Cert.Spec.arrOut (val_main_v0 (F := Ideal) x0) x1 x2 x3 := by
  funext i
  obtain ⟨g, t, d, rfl⟩ : ∃ (g : Fin 8) (t : Fin 16384) (d : Fin 256), i = ix3 g t d := ⟨i 0, i 1, i 2, eq_ix3 i⟩
  exact ref_at x0 x1 x2 x3 g t d

end Cert.RefRow

end
-- ==== Proof.lean ====
/-
  A grouped gated unit: 131072 tokens in 8 groups of 16384, each token a row of 256 inputs; group g has gate and
  up weights (256 × 1024) and down weights (1024 × 256).  For a row x of group g the result row is
      y = ((z · σ z) · u) · W_down,   z = x · W_gate,  u = x · W_up,  σ z = 1 / (1 + e^(−z)),
  that is  y_d = Σ_{f<1024} (z_f · σ z_f · u_f) · W_down[f, d].

  The reference computes exactly this, group by group, after regrouping the input to [8, 16384, 256], and
  flattens the result.  The kernel walks an 8 × 8 grid (group, tile of 2048 tokens); at each point it computes the
  1024 hidden features in two halves of 512, adds the two half products one after the other onto a zeroed
  accumulator, and writes the accumulator out as the tile's rows.  Over the extended reals a change of float
  format is the identity, a matrix product into zero is the plain sum of products, the kernel's logistic and the
  reference's 1 / (1 + e^(−z)) are one function, and a sum over 1024 features is the sum of its two halves
  added onto zero: only associativity and commutativity of addition are used, so the two results agree entry by
  entry at every input, the infinities included, and the precondition is never opened.

  The modules: Spec (one row, both arrangements, the law), ArrSpec (the grouped result as one array),
  RefRow / RefArr (the reference is that array), BlockRun / BlockAt (what a grid point leaves, entry by entry),
  RegionIdx / Region (blocks to the array), Whole (the host lines around the region, the kernel's run).
-/
import proofs.«108139_j35373350650171_2_alg».proof.Defs
import proofs.«108139_j35373350650171_2_alg».proof.Proof.Gen.Kernel
import proofs.«108139_j35373350650171_2_alg».proof.Proof.Gen.Kernel.Skeleton
import proofs.«108139_j35373350650171_2_alg».proof.Proof.Gen.Kernel.Launch
import proofs.«108139_j35373350650171_2_alg».proof.Proof.Gen.Kernel.Points
import proofs.«108139_j35373350650171_2_alg».proof.Proof.Gen.Kernel.Frame
import proofs.«108139_j35373350650171_2_alg».proof.Proof.Gen.KernelIdeal
import proofs.«108139_j35373350650171_2_alg».proof.Proof.Gen.KernelIdeal.Skeleton
import proofs.«108139_j35373350650171_2_alg».proof.Proof.Gen.KernelIdeal.Launch
import proofs.«108139_j35373350650171_2_alg».proof.Proof.Gen.KernelIdeal.Points
import proofs.«108139_j35373350650171_2_alg».proof.Proof.Gen.KernelIdeal.Frame
import proofs.«108139_j35373350650171_2_alg».proof.Proof.Gen.ReferenceIdeal
import proofs.«108139_j35373350650171_2_alg».proof.Proof.Gen.ReferenceIdeal.Run
import proofs.«108139_j35373350650171_2_alg».proof.Proof.Gen.ReferenceIdeal.Read
import proofs.«108139_j35373350650171_2_alg».proof.Proof.Gen.Pre_finite_inputs
import proofs.«108139_j35373350650171_2_alg».proof.Proof.Whole
import proofs.«108139_j35373350650171_2_alg».proof.Proof.RefArr
import Idealize.ShloMosaic.Adequacy
import Idealize.ShloMosaic.Init

noncomputable section

namespace Cert.Proof

open Idealize.ShloMosaic Idealize.SL.Sem

/-- The kernel as printed runs, faults nowhere, and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as they were: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation. -/
theorem preserves : Cert.preserves_Kernel_KernelIdeal := trivial

/-- From arguments that agree, the kernel's result buffer and the reference's end holding the same array: the
    flattening of the grouped result of the regrouped input and the weights. -/
theorem algebraic : Cert.algebraic_KernelIdeal_ReferenceIdeal := by
  intro m ρ m' ρ' _ hagree
  refine ⟨fun c => Cert.KernelIdeal.Whole.out m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, (hagree c).1, (hagree c).2.1, (hagree c).2.2.1, (hagree c).2.2.2.1]
  unfold Cert.ReferenceIdeal.Read.val_main_v6
  rw [Cert.RefRow.ref_arr]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
